-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S1 : Shape := ⟨1, ![1]⟩
abbrev S128x256 : Shape := ⟨2, ![128, 256]⟩
abbrev S256 : Shape := ⟨1, ![256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S1 : S_.BroadcastsInDim S1 (![] : Fin 0 → Fin S1.rank)
  reducesTo_S1_S_d0 : S1.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S128x256 .f32) (main_arg6 : FVec F S256 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S100000x256 .f32) (main_arg1 : IVec S2x1600000 32) (main_arg2 : FVec F S256x128 .f32) (main_arg3 : FVec F S128 .f32) (main_arg4 : FVec F S1 .f32) (main_arg5 : FVec F S128x256 .f32) (main_arg6 : FVec F S256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg5 main_arg6 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S1 : Shape := ⟨1, ![1]⟩
abbrev S128x256 : Shape := ⟨2, ![128, 256]⟩
abbrev S256 : Shape := ⟨1, ![256]⟩
abbrev S100000x128 : Shape := ⟨2, ![100000, 128]⟩
abbrev S2000x256 : Shape := ⟨2, ![2000, 256]⟩
abbrev S2000x128 : Shape := ⟨2, ![2000, 128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S1x256 : Shape := ⟨2, ![1, 256]⟩
abbrev S1x1 : Shape := ⟨2, ![1, 1]⟩

abbrev nBuf : Space → Nat
  | .hbm => 68
  | .vmem => 13
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S1, .f32⟩
  | .hbm, ⟨5, _⟩ => ⟨S128x256, .f32⟩
  | .hbm, ⟨6, _⟩ => ⟨S256, .f32⟩
  | .hbm, ⟨7, _⟩ => ⟨S100000x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S1x256, .f32⟩
  | .hbm, ⟨66, _⟩ => ⟨S1x1, .f32⟩
  | .hbm, ⟨67, _⟩ => ⟨S100000x256, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S1x1, .f32⟩
  | .local _ .vmem, ⟨9, _⟩ => ⟨S128x256, .f32⟩
  | .local _ .vmem, ⟨10, _⟩ => ⟨S1x256, .f32⟩
  | .local _ .vmem, ⟨11, _⟩ => ⟨S2000x256, .f32⟩
  | .local _ .vmem, ⟨12, _⟩ => ⟨S2000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S256_S1x256 : S256.ShapeCasts S1x256
  shapeCasts_S1_S1x1 : S1.ShapeCasts S1x1
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  dot_S2000x256_S256x128_S2000x128_1_0_0_1_n_n_wf : DotDims.WF S2000x256 S256x128 S2000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x256_S2000x256_1_0_0_1_n_n_wf : DotDims.WF S2000x128 S128x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S100000x256.size a
  hwx1_5 : ∀ i : grid1.Coords, EltTy.bits .f32 = 32 ∨ (Rect.block (s := S100000x256) S2000x256.size (cc1_transform_5 i) (hinb1_5 i)).WholeWords (EltTy.packing .f32)

variable [Facts₀]

def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S1 : Shape := ⟨1, ![1]⟩
abbrev S128x256 : Shape := ⟨2, ![128, 256]⟩
abbrev S256 : Shape := ⟨1, ![256]⟩
abbrev S100000x128 : Shape := ⟨2, ![100000, 128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S1x1 : Shape := ⟨2, ![1, 1]⟩
abbrev S1x256 : Shape := ⟨2, ![1, 256]⟩

abbrev nBuf : Space → Nat
  | .hbm => 78
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S1, .f32⟩
  | .hbm, ⟨5, _⟩ => ⟨S128x256, .f32⟩
  | .hbm, ⟨6, _⟩ => ⟨S256, .f32⟩
  | .hbm, ⟨7, _⟩ => ⟨S100000x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000x128, .f32⟩
  | .hbm, ⟨69, _⟩ => ⟨S100000x128, .i1⟩
  | .hbm, ⟨70, _⟩ => ⟨S1x1, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S100000x256, .f32⟩
  | .hbm, ⟨75, _⟩ => ⟨S1x256, .f32⟩
  | .hbm, ⟨76, _⟩ => ⟨S100000x256, .f32⟩
  | .hbm, ⟨77, _⟩ => ⟨S100000x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1_S1x1_1 : S1.BroadcastsInDim S1x1 (![1] : Fin 1 → Fin S1x1.rank)
  bcast_S1x1_S100000x128_0_1 : S1x1.BroadcastsInDim S100000x128 (![0, 1] : Fin 2 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  dot_S100000x256_S256x128_S100000x128_1_0_0_1_n_n_wf : DotDims.WF S100000x256 S256x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x256_S100000x256_1_0_0_1_n_n_wf : DotDims.WF S100000x128 S128x256 S100000x256 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf

class Facts : Prop extends Facts₀ where

variable [Facts]
-- ==== Proof.KernelRun.lean ====
/-
  The idealized kernel's run with its result named.  @main is five segments: the first tiled product, three stretches
  of host operations (the aggregation over the edge list, the reshapes of the bias rows and of the slope), and the
  second tiled product.  The generated frame threads the contents of every unscoped buffer through the segments
  (`W0 … W5`) and concludes only that the arguments end as launched; here the same launch is read once more at the
  result buffer, so that every terminating execution leaves `main_v47` at the last boundary's contents `W5`.
-/
import proofs.«166527_j50594714747240_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v47) = W5 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v47 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.KernelIdeal.Named

end
-- ==== Proof.Region0.lean ====
/-
  The first pipeline: `h = x · W_conv`, 2000 rows of `x` at a time.  Grid point `t` loads rows `2000 t … 2000 t + 1999`
  of `x` and all of `W_conv`, multiplies them into a zero accumulator, and writes the 2000 × 128 product back as
  block `t` of the result.  Over the extended reals an entry of a block product is the plain sum over the 256
  contracted coordinates, which is the entry of the whole product at the block's row offset; the 50 blocks tile the
  100000 rows, so the array ends as the whole product of the two argument arrays.
-/
import proofs.«166527_j50594714747240_1_alg».proof.Proof.Gen.KernelIdeal.Frame
import proofs.«166527_j50594714747240_1_alg».proof.Proof.RefRead
import Idealize.ShloMosaic.Lib.Pipeline.Value
import Idealize.ShloMosaic.Lib.ValueIdx
import Idealize.ShloMosaic.PureOps.Ideal.Laws

set_option maxRecDepth 16384

noncomputable section

namespace Cert.KernelIdeal.First

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem hz : (![0, 0] : Fin 2 → Nat) = fun _ => 0 := funext fun a => by fin_cases a <;> rfl

/-! ## The block product at an index -/

theorem lhs_0 (i : S2000x128.Idx) (q : dot_S2000x256_S256x128_S2000x128_1_0_0_1_n_n.contr.Idx) : (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs_1 (i : S2000x128.Idx) (q : dot_S2000x256_S256x128_S2000x128_1_0_0_1_n_n.contr.Idx) : (dot_S2000x256_S256x128_S2000x128_1_0_0_1_n_n.lhsIdx i q 1).val = (q ⟨0, by decide⟩).val :=
  dot_S2000x256_S256x128_S2000x128_1_0_0_1_n_n.lhsIdx_val_of_single rfl i q
theorem rhs_0 (i : S2000x128.Idx) (q : dot_S2000x256_S256x128_S2000x128_1_0_0_1_n_n.contr.Idx) : (dot_S2000x256_S256x128_S2000x128_1_0_0_1_n_n.rhsIdx i q 0).val = (q ⟨0, by decide⟩).val :=
  dot_S2000x256_S256x128_S2000x128_1_0_0_1_n_n.rhsIdx_val_of_single rfl i q
theorem rhs_1 (i : S2000x128.Idx) (q : dot_S2000x256_S256x128_S2000x128_1_0_0_1_n_n.contr.Idx) : (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- Entry `(p, q)` of what the body stores: the sum over `k` of the loaded row block at `(p, k)` times the loaded
    weights at `(k, q)` (the change of float format is the identity, the accumulator is zero). -/
theorem block_product (x0 : FVec Ideal S2000x256 .f32) (x1 : FVec Ideal S256x128 .f32) (p : Fin 2000) (q : Fin 128) :
    k0_pay1 (F := Ideal) x0 x1 (ix2 p q) = ∑ k : Fin 256, x0 (ix2 p k) * x1 (ix2 k q) := by
  unfold k0_pay1
  simp only [matmul]
  rw [Ideal.matmul_constant_zero_apply, ← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 p q) ((contrEquiv1 dot_S2000x256_S256x128_S2000x128_1_0_0_1_n_n 256 rfl rfl).symm k) = ix2 p k := funext fun a => Fin.ext (by
    match a with
    | ⟨0, _⟩ => exact lhs_0 _ _
    | ⟨1, _⟩ => exact (lhs_1 _ _).trans hk)
  have er : dot_S2000x256_S256x128_S2000x128_1_0_0_1_n_n.rhsIdx (ix2 p q) ((contrEquiv1 dot_S2000x256_S256x128_S2000x128_1_0_0_1_n_n 256 rfl rfl).symm k) = ix2 k q := funext fun a => Fin.ext (by
    match a with
    | ⟨0, _⟩ => exact (rhs_0 _ _).trans hk
    | ⟨1, _⟩ => exact rhs_1 _ _)
  rw [el, er]
  rfl

/-! ## From the blocks to the array -/

section Region
variable (V : (c : Dev nD) → (b : Ref sig .tc) → Buf (Elt Ideal) ((c : Thread nD τ).loc b))

/-- The printed index maps over the grid: the row blocks of `x` and of the result move together with the point, the
    weights stay. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- What point `t` writes back is block `t` of the whole product of the two arrays the region finds. -/
theorem flushed (c : Dev nD) (t : Fin cfg0.N) :
    (dat0 V c).flushed 2 t = ((cfg0.win 2).blk t).view.read (Elt Ideal)
      (Cert.ReferenceIdeal.ReadP.val_main_v0 (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S2000x256) hz, View.ld_unit_zero (S := S256x128) hz]
  obtain ⟨e0, e1, e2, e3, e4, e5⟩ := idx_facts t
  funext j
  obtain ⟨p, q, rfl⟩ : ∃ (p : Fin 2000) (q : Fin 128), j = ix2 p q := ⟨j 0, j 1, eq_ix2 j⟩
  show k0_pay1 (F := Ideal) (iblk0 V c 0 t) (iblk0 V c 1 t) (ix2 p q)
    = Cert.ReferenceIdeal.ReadP.val_main_v0 (F := Ideal) (V c main_arg0) (V c main_arg2) (((cfg0.win 2).blk t).view.emb (ix2 p q))
  rw [Cert.ReferenceIdeal.ReadP.val_main_v0_apply]
  refine (block_product (iblk0 V c 0 t) (iblk0 V c 1 t) p q).trans (Finset.sum_congr rfl fun k _ => ?_)
  have h0 : ((cfg0.win 0).blk t).view.emb (ix2 p k)
      = Cert.ReferenceIdeal.ReadP.lidx_main_v0 (((cfg0.win 2).blk t).view.emb (ix2 p q)) k := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 256 + 1 * k.val = k.val; omega
  have h1 : ((cfg0.win 1).blk t).view.emb (ix2 k q)
      = Cert.ReferenceIdeal.ReadP.ridx_main_v0 (((cfg0.win 2).blk t).view.emb (ix2 p q)) k := by
    funext a; apply Fin.ext
    match a with
    | ⟨0, _⟩ => show win0_1.index t (0 : Fin 2) * 256 + 1 * k.val = k.val; omega
    | ⟨1, _⟩ => show win0_1.index t (1 : Fin 2) * 128 + 1 * q.val = win0_2.index t (1 : Fin 2) * 128 + 1 * q.val; omega
  exact congrArg₂ (· * ·) (congrArg (V c main_arg0) h0) (congrArg (V c main_arg2) h1)

/-- An index of the result is in point `t`'s block iff each coordinate is in the block's range on its axis. -/
theorem mem_blk (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

/-- Every row belongs to the block of the point `row / 2000`. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 50 := N_0
  have ht : (i 0).val / 2000 < grid0.N := by omega
  obtain ⟨e0, e1, e2, e3, e4, e5⟩ := idx_facts ⟨(i 0).val / 2000, ht⟩
  refine ⟨⟨(i 0).val / 2000, ht⟩, flush0_2 _, ?_⟩
  rw [mem_blk]
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    have e5' : win0_2.index ⟨(i 0).val / 2000, ht⟩ (0 : Fin 2) = (i 0).val / 2000 := e5
    omega
  | ⟨1, _⟩ =>
    show win0_2.index ⟨(i 0).val / 2000, ht⟩ (1 : Fin 2) * 128 ≤ (i 1).val ∧ (i 1).val < win0_2.index ⟨(i 0).val / 2000, ht⟩ (1 : Fin 2) * 128 + 128
    omega

/-- The first pipeline's result array, after its last point, is the whole product of `x` and `W_conv` as the region
    found them. -/
theorem array (c : Dev nD) :
    (dat0 V c).arrAt 2 cfg0.N = Cert.ReferenceIdeal.ReadP.val_main_v0 (F := Ideal) (V c main_arg0) (V c main_arg2) :=
  (dat0 V c).arrAt_eq_of_cover 2 _ (fun t _ => flushed V c t) cover

end Region

end Cert.KernelIdeal.First

end
-- ==== Proof.Stages.lean ====
/-
  The reference's result, cut where the kernel cuts its own computation.  The reference computes
      h   = x · W_conv                                   (one matrix product over all nodes)
      g   = agg h e                                      (the normalised neighbourhood sum over the edge list `e`,
                                                          self-loops added: degrees, their inverse square roots,
                                                          gather, scale, scatter-add)
      out = act (g + b_conv) a · W_lin + b_lin           (bias, the one-slope leaky activation, the second product, bias)
  The kernel computes `h` and `out` in two tiled pipelines and `g` by the very same host operations in between, so
  `agg` is carried as ONE function of the node features and the edge list and is never opened; only the two ends
  are read index by index.
-/
import proofs.«166527_j50594714747240_1_alg».proof.Proof.RefRead

noncomputable section

namespace Cert.ReferenceIdeal.Split

open Cert.ReferenceIdeal Cert.ReferenceIdeal.Gen Cert.ReferenceIdeal.ReadP Idealize.ShloMosaic Idealize.ShloMosaic.TcCoe
open Idealize.SL.Sem Idealize.ShloMosaic.StableHlo

variable {F : FTy → Type} [FloatOps F]

/-- The aggregation: every node's sum, over its incoming edges and its self-loop, of the source node's feature row
    scaled by the two endpoints' inverse square-root degrees — as the reference's own host operations compute it, a
    function of the feature array `h` and the edge list `e`. -/
def agg (h : (⟨S100000x128, .f32⟩ : BufTy).Contents (Elt F)) (e : (⟨S2x1600000, .i32⟩ : BufTy).Contents (Elt F)) :
    (⟨S100000x128, .f32⟩ : BufTy).Contents (Elt F) :=
  Host.scatterAdd scatter_S100000x128_S1700000x1_S1700000x128_1_0_0_1 (val_main_v41 (F := F)) (val_main_v42 (F := F) e)
    (mulf (Host.gather gather_S100000x128_S1700000x1_S1700000x128_1_0_n_n_0_1_1128 h (val_main_v36 (F := F) e)) (val_main_v39 (F := F) e))

/-- The activation: `z` where `z ≥ 0`, the slope times `z` elsewhere. -/
def act (z : (⟨S100000x128, .f32⟩ : BufTy).Contents (Elt F)) (x4 : (⟨S1, .f32⟩ : BufTy).Contents (Elt F)) :
    (⟨S100000x128, .f32⟩ : BufTy).Contents (Elt F) :=
  select (cmpf .oge z (val_main_v47 (F := F))) z (mulf (val_main_v50 (F := F) x4) z)

/-- Everything after the aggregation, as a function of the aggregated array and the four parameter arrays. -/
def tail (g : (⟨S100000x128, .f32⟩ : BufTy).Contents (Elt F)) (x3 : (⟨S128, .f32⟩ : BufTy).Contents (Elt F))
    (x4 : (⟨S1, .f32⟩ : BufTy).Contents (Elt F)) (x5 : (⟨S128x256, .f32⟩ : BufTy).Contents (Elt F))
    (x6 : (⟨S256, .f32⟩ : BufTy).Contents (Elt F)) : (⟨S100000x256, .f32⟩ : BufTy).Contents (Elt F) :=
  addf (Host.dotGeneral dot_S100000x128_S128x256_S100000x256_1_0_0_1_n_n none (act (addf g (val_main_v45 (F := F) x3)) x4) x5)
    (val_main_v55 (F := F) x6)

/-- The reference's result is the tail of the aggregation of the first product. -/
theorem result_split (x0 : (⟨S100000x256, .f32⟩ : BufTy).Contents (Elt F)) (x1 : (⟨S2x1600000, .i32⟩ : BufTy).Contents (Elt F))
    (x2 : (⟨S256x128, .f32⟩ : BufTy).Contents (Elt F)) (x3 : (⟨S128, .f32⟩ : BufTy).Contents (Elt F))
    (x4 : (⟨S1, .f32⟩ : BufTy).Contents (Elt F)) (x5 : (⟨S128x256, .f32⟩ : BufTy).Contents (Elt F))
    (x6 : (⟨S256, .f32⟩ : BufTy).Contents (Elt F)) :
    val_main_v56 (F := F) x0 x1 x2 x3 x4 x5 x6 = tail (agg (val_main_v0 (F := F) x0 x2) x1) x3 x4 x5 x6 := rfl

/-- A product of an array of node rows with the second weight matrix, read at an index: the sum over the 128 hidden
    coordinates. (The reading of a host `dot_general` with one contracted axis, for any left operand.) -/
theorem dot2_apply (y : FVec Ideal S100000x128 .f32) (x5 : FVec Ideal S128x256 .f32) (i : S100000x256.Idx) :
    Host.dotGeneral (F := Ideal) dot_S100000x128_S128x256_S100000x256_1_0_0_1_n_n none y x5 i
      = ∑ k : Fin 128, y (lidx_main_v53 i k) * x5 (ridx_main_v53 i k) := by
  simp only [Host.dotGeneral]
  rw [Ideal.dotGeneral_apply, ← Equiv.sum_comp (ValueIdx.contrEquiv1 dot_S100000x128_S128x256_S100000x256_1_0_0_1_n_n 128 rfl rfl).symm]
  refine Finset.sum_congr rfl fun k _ => ?_
  have hk := ValueIdx.contrEquiv1_symm_val dot_S100000x128_S128x256_S100000x256_1_0_0_1_n_n 128 rfl rfl k
  have el : dot_S100000x128_S128x256_S100000x256_1_0_0_1_n_n.lhsIdx i ((ValueIdx.contrEquiv1 dot_S100000x128_S128x256_S100000x256_1_0_0_1_n_n 128 rfl rfl).symm k) = lidx_main_v53 i k := funext fun a => Fin.ext (by
    match a with
    | ⟨0, _⟩ => exact lhs_main_v53_0 _ _
    | ⟨1, _⟩ => exact (lhs_main_v53_1 _ _).trans hk)
  have er : dot_S100000x128_S128x256_S100000x256_1_0_0_1_n_n.rhsIdx i ((ValueIdx.contrEquiv1 dot_S100000x128_S128x256_S100000x256_1_0_0_1_n_n 128 rfl rfl).symm k) = ridx_main_v53 i k := funext fun a => Fin.ext (by
    match a with
    | ⟨0, _⟩ => exact (rhs_main_v53_0 _ _).trans hk
    | ⟨1, _⟩ => exact rhs_main_v53_1 _ _)
  rw [el, er]

/-- The activation at an index, over the extended reals. -/
def actAt (z a : EReal) : EReal :=
  Scalar.select (FloatOps.cmpf (F := Ideal) (φ := .f32) .oge z (Ideal.ofBits .f32 0x00000000#32)) z (a * z)

/-- The tail read at an index: the sum over the hidden coordinate `k` of the activated, biased aggregate at `(r, k)`
    times the weight at `(k, c)`, plus the output bias at `c`. -/
theorem tail_apply (g : FVec Ideal S100000x128 .f32) (x3 : FVec Ideal S128 .f32) (x4 : FVec Ideal S1 .f32)
    (x5 : FVec Ideal S128x256 .f32) (x6 : FVec Ideal S256 .f32) (i : S100000x256.Idx) :
    tail (F := Ideal) g x3 x4 x5 x6 i
      = (∑ k : Fin 128, actAt (g (lidx_main_v53 i k) + x3 (idx_main_v44 (idx_main_v45 (lidx_main_v53 i k))))
            (x4 (idx_main_v49 (idx_main_v50 (lidx_main_v53 i k)))) * x5 (ridx_main_v53 i k))
        + x6 (idx_main_v54 (idx_main_v55 i)) := by
  unfold tail
  rw [ValueIdx.addf_apply, dot2_apply, val_main_v55_apply, val_main_v54_apply]
  refine congrArg (· + x6 (idx_main_v54 (idx_main_v55 i))) (Finset.sum_congr rfl fun k _ => ?_)
  refine congrArg (· * x5 (ridx_main_v53 i k)) ?_
  unfold act actAt
  rw [ValueIdx.select_apply, ValueIdx.cmpf_apply, ValueIdx.mulf_apply, ValueIdx.addf_apply, val_main_v45_apply, val_main_v44_apply,
    val_main_v50_apply, val_main_v49_apply]
  rfl

end Cert.ReferenceIdeal.Split

end
-- ==== Proof.Region1.lean ====
/-
  The second pipeline: `out = act (g + b_conv) a · W_lin + b_lin`, 2000 rows of the aggregated array `g` at a time.
  Grid point `t` loads rows `2000 t … 2000 t + 1999` of `g`, the hidden bias as one row, the slope as a 1 × 1 array, all
  of `W_lin` and the output bias as one row; adds the bias row to every loaded row, applies the activation entry by
  entry, multiplies by `W_lin` into a zero accumulator, adds the output bias row, and writes the 2000 × 256 result
  back as block `t`.  Entry `(p, q)` of the block is therefore the sum over the 128 hidden coordinates `k` of the
  activated `g (2000 t + p, k) + b_conv k` times `W_lin (k, q)`, plus `b_lin q`: the reference's tail at row
  `2000 t + p`.  The 50 blocks tile the 100000 rows.
-/
import proofs.«166527_j50594714747240_1_alg».proof.Proof.Gen.KernelIdeal.Frame
import proofs.«166527_j50594714747240_1_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Second

open Idealize.ShloMosaic Idealize.ShloMosaic.TcCoe Idealize.ShloMosaic.ValueIdx Idealize.SL.Sem
open Idealize.ShloMosaic.Pipeline (Dat Cfg Window)
open Cert.KernelIdeal Cert.KernelIdeal.Gen
open Cert.ReferenceIdeal.Split (actAt)

theorem hz : (![0, 0] : Fin 2 → Nat) = fun _ => 0 := funext fun a => by fin_cases a <;> rfl

/-! ## The block's entry -/

theorem lhs_0 (i : S2000x256.Idx) (q : dot_S2000x128_S128x256_S2000x256_1_0_0_1_n_n.contr.Idx) : (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_1 (i : S2000x256.Idx) (q : dot_S2000x128_S128x256_S2000x256_1_0_0_1_n_n.contr.Idx) : (dot_S2000x128_S128x256_S2000x256_1_0_0_1_n_n.lhsIdx i q 1).val = (q ⟨0, by decide⟩).val :=
  dot_S2000x128_S128x256_S2000x256_1_0_0_1_n_n.lhsIdx_val_of_single rfl i q
theorem rhs_0 (i : S2000x256.Idx) (q : dot_S2000x128_S128x256_S2000x256_1_0_0_1_n_n.contr.Idx) : (dot_S2000x128_S128x256_S2000x256_1_0_0_1_n_n.rhsIdx i q 0).val = (q ⟨0, by decide⟩).val :=
  dot_S2000x128_S128x256_S2000x256_1_0_0_1_n_n.rhsIdx_val_of_single rfl i q
theorem rhs_1 (i : S2000x256.Idx) (q : dot_S2000x128_S128x256_S2000x256_1_0_0_1_n_n.contr.Idx) : (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- The one entry of a 1 × 1 array. -/
theorem extract00 (x : FVec Ideal S1x1 .f32) (h : ∀ a, (![0, 0] : Fin 2 → Nat) a < S1x1.size a) :
    extractAt ![0, 0] x h = x (ix2 (0 : Fin 1) (0 : Fin 1)) :=
  congrArg x (funext fun a => Fin.ext (by match a with | ⟨0, _⟩ => rfl | ⟨1, _⟩ => rfl))

/-- Entry `(p, q)` of what the body stores. -/
theorem block_tail (x0 : FVec Ideal S2000x128 .f32) (x1 : FVec Ideal S1x128 .f32) (x2 : FVec Ideal S1x1 .f32)
    (x3 : FVec Ideal S128x256 .f32) (x4 : FVec Ideal S1x256 .f32) (p : Fin 2000) (q : Fin 256) :
    k1_pay1 (F := Ideal) x0 x1 x2 x3 x4 (ix2 p q)
      = (∑ k : Fin 128, actAt (x0 (ix2 p k) + x1 (ix2 (0 : Fin 1) k)) (x2 (ix2 (0 : Fin 1) (0 : Fin 1))) * x3 (ix2 k q))
        + x4 (ix2 (0 : Fin 1) q) := by
  unfold k1_pay1
  simp only [matmul, shapeCast_self]
  rw [addf_apply, Ideal.matmul_constant_zero_apply, ← Equiv.sum_comp (contrEquiv1 dot_S2000x128_S128x256_S2000x256_1_0_0_1_n_n 128 rfl rfl).symm, broadcastTo_1b_ab_apply]
  refine congrArg (· + x4 (ix2 (0 : Fin 1) q)) (Finset.sum_congr rfl fun k _ => ?_)
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k := funext fun a => Fin.ext (by
    match a with
    | ⟨0, _⟩ => exact lhs_0 _ _
    | ⟨1, _⟩ => exact (lhs_1 _ _).trans hk)
  have er : dot_S2000x128_S128x256_S2000x256_1_0_0_1_n_n.rhsIdx (ix2 p q) ((contrEquiv1 dot_S2000x128_S128x256_S2000x256_1_0_0_1_n_n 128 rfl rfl).symm k) = ix2 k q := funext fun a => Fin.ext (by
    match a with
    | ⟨0, _⟩ => exact (rhs_0 _ _).trans hk
    | ⟨1, _⟩ => exact rhs_1 _ _)
  rw [el, er]
  refine congrArg (· * x3 (ix2 k q)) ?_
  rw [truncf_apply, select_apply, cmpf_apply, mulf_apply, addf_apply, broadcastTo_1b_ab_apply, broadcast_apply, broadcast_apply, extract00]
  rfl

/-! ## From the blocks to the array -/

section Region
variable (V : (c : Dev nD) → (b : Ref sig .tc) → Buf (Elt Ideal) ((c : Thread nD τ).loc b))

/-- The printed index maps over the grid: the row blocks of `g` and of the result move together with the point,
    every parameter array stays. -/
theorem idx_facts : ∀ t : Fin cfg1.N, win1_0.index t (0 : Fin 2) = win1_5.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0
    ∧ win1_5.index t (0 : Fin 2) = t.val :=
  (by decide +kernel : ∀ t : Fin grid1.N, _)

/-- What point `t` writes back is block `t` of the reference's tail of the aggregated array the region finds, when the
    three reshaped parameter rows the region finds are the parameter vectors `x3`, `x4`, `x6` entry by entry. -/
theorem flushed (c : Dev nD) (t : Fin cfg1.N) (x3 : FVec Ideal S128 .f32) (x4 : FVec Ideal S1 .f32) (x6 : FVec Ideal S256 .f32)
    (h3 : ∀ k : Fin 128, (V c main_v44 : S1x128.Idx → EReal) (ix2 (0 : Fin 1) k) = x3 (ix1 k))
    (h4 : (V c main_v46 : S1x1.Idx → EReal) (ix2 (0 : Fin 1) (0 : Fin 1)) = x4 (ix1 (0 : Fin 1)))
    (h6 : ∀ q : Fin 256, (V c main_v45 : S1x256.Idx → EReal) (ix2 (0 : Fin 1) q) = x6 (ix1 q)) :
    (dat1 V c).flushed 5 t = ((cfg1.win 5).blk t).view.read (Elt Ideal)
      (Cert.ReferenceIdeal.Split.tail (F := Ideal) (V c main_v43) x3 x4 (V c main_arg5) x6) := by
  show (cfg1.win 5).cut (grid1.coords t) ((dat1 V c).after 5 t) = _
  rw [after1_5]
  unfold out1_5
  rw [View.canon_unit_zero hz]
  simp only [View.ld_unit_zero (S := S2000x128) hz, View.ld_unit_zero (S := S1x128) hz, View.ld_unit_zero (S := S1x1) hz,
    View.ld_unit_zero (S := S128x256) hz, View.ld_unit_zero (S := S1x256) hz]
  obtain ⟨e0, e1, e2, e3, e4, e5, e6, e7, e8, e9, e10, e11⟩ := idx_facts t
  funext j
  obtain ⟨p, q, rfl⟩ : ∃ (p : Fin 2000) (q : Fin 256), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = Cert.ReferenceIdeal.Split.tail (F := Ideal) (V c main_v43) x3 x4 (V c main_arg5) x6 (((cfg1.win 5).blk t).view.emb (ix2 p q))
  rw [Cert.ReferenceIdeal.Split.tail_apply]
  refine (block_tail (iblk1 V c 0 t) (iblk1 V c 1 t) (iblk1 V c 2 t) (iblk1 V c 3 t) (iblk1 V c 4 t) p q).trans ?_
  refine congrArg₂ (· + ·) (Finset.sum_congr rfl fun k _ => ?_) ?_
  · have a0 : ((cfg1.win 0).blk t).view.emb (ix2 p k) = Cert.ReferenceIdeal.ReadP.lidx_main_v53 (((cfg1.win 5).blk t).view.emb (ix2 p q)) k := by
      funext a; apply Fin.ext
      match a with
      | ⟨0, _⟩ => show win1_0.index t (0 : Fin 2) * 2000 + 1 * p.val = win1_5.index t (0 : Fin 2) * 2000 + 1 * p.val; omega
      | ⟨1, _⟩ => show win1_0.index t (1 : Fin 2) * 128 + 1 * k.val = k.val; omega
    have a1 : ((cfg1.win 1).blk t).view.emb (ix2 (0 : Fin 1) k) = (ix2 (0 : Fin 1) k : S1x128.Idx) := by
      funext a; apply Fin.ext
      match a with
      | ⟨0, _⟩ => show win1_1.index t (0 : Fin 2) * 1 + 1 * 0 = 0; omega
      | ⟨1, _⟩ => show win1_1.index t (1 : Fin 2) * 128 + 1 * k.val = k.val; omega
    have a2 : ((cfg1.win 2).blk t).view.emb (ix2 (0 : Fin 1) (0 : Fin 1)) = (ix2 (0 : Fin 1) (0 : Fin 1) : S1x1.Idx) := by
      funext a; apply Fin.ext
      match a with
      | ⟨0, _⟩ => show win1_2.index t (0 : Fin 2) * 1 + 1 * 0 = 0; omega
      | ⟨1, _⟩ => show win1_2.index t (1 : Fin 2) * 1 + 1 * 0 = 0; omega
    have a3 : ((cfg1.win 3).blk t).view.emb (ix2 k q) = Cert.ReferenceIdeal.ReadP.ridx_main_v53 (((cfg1.win 5).blk t).view.emb (ix2 p q)) k := by
      funext a; apply Fin.ext
      match a with
      | ⟨0, _⟩ => show win1_3.index t (0 : Fin 2) * 128 + 1 * k.val = k.val; omega
      | ⟨1, _⟩ => show win1_3.index t (1 : Fin 2) * 256 + 1 * q.val = win1_5.index t (1 : Fin 2) * 256 + 1 * q.val; omega
    have b3 : Cert.ReferenceIdeal.ReadP.idx_main_v44 (Cert.ReferenceIdeal.ReadP.idx_main_v45 (Cert.ReferenceIdeal.ReadP.lidx_main_v53 (((cfg1.win 5).blk t).view.emb (ix2 p q)) k)) = ix1 k :=
      funext fun a => Fin.ext (by match a with | ⟨0, _⟩ => rfl)
    have b4 : Cert.ReferenceIdeal.ReadP.idx_main_v49 (Cert.ReferenceIdeal.ReadP.idx_main_v50 (Cert.ReferenceIdeal.ReadP.lidx_main_v53 (((cfg1.win 5).blk t).view.emb (ix2 p q)) k)) = ix1 (0 : Fin 1) :=
      funext fun a => Fin.ext (by match a with | ⟨0, _⟩ => rfl)
    exact congrArg₂ (· * ·)
      (congrArg₂ actAt
        (congrArg₂ (· + ·) (congrArg (V c main_v43) a0)
          ((congrArg (V c main_v44) a1).trans ((h3 k).trans (congrArg x3 b3.symm))))
        ((congrArg (V c main_v46) a2).trans (h4.trans (congrArg x4 b4.symm))))
      (congrArg (V c main_arg5) a3)
  · have a4 : ((cfg1.win 4).blk t).view.emb (ix2 (0 : Fin 1) q) = (ix2 (0 : Fin 1) q : S1x256.Idx) := by
      funext a; apply Fin.ext
      match a with
      | ⟨0, _⟩ => show win1_4.index t (0 : Fin 2) * 1 + 1 * 0 = 0; omega
      | ⟨1, _⟩ => show win1_4.index t (1 : Fin 2) * 256 + 1 * q.val = q.val; omega
    have b6 : Cert.ReferenceIdeal.ReadP.idx_main_v54 (Cert.ReferenceIdeal.ReadP.idx_main_v55 (((cfg1.win 5).blk t).view.emb (ix2 p q))) = ix1 q := by
      funext a; apply Fin.ext
      match a with
      | ⟨0, _⟩ => show win1_5.index t (1 : Fin 2) * 256 + 1 * q.val = q.val; omega
    exact (congrArg (V c main_v45) a4).trans ((h6 q).trans (congrArg x6 b6.symm))

/-- An index of the result is in point `t`'s block iff each coordinate is in the block's range on its axis. -/
theorem mem_blk (t : Fin cfg1.N) (i : S100000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v47).slice (win1_5.rect t)).set ↔ _
  rw [View.set_slice_whole, Rect.mem_set_unit]
  exact Iff.rfl

/-- Every row belongs to the block of the point `row / 2000`. -/
theorem cover (i : S100000x256.Idx) : ∃ t : Fin cfg1.N, (cfg1.win 5).flush t = true ∧ i ∈ ((cfg1.win 5).blk t).view.set := by
  have hi0 : (i 0).val < 100000 := (i 0).isLt
  have hi1 : (i 1).val < 256 := (i 1).isLt
  have hN : grid1.N = 50 := N_1
  have ht : (i 0).val / 2000 < grid1.N := by omega
  obtain ⟨e0, e1, e2, e3, e4, e5, e6, e7, e8, e9, e10, e11⟩ := idx_facts ⟨(i 0).val / 2000, ht⟩
  refine ⟨⟨(i 0).val / 2000, ht⟩, flush1_5 _, ?_⟩
  rw [mem_blk]
  intro a
  match a with
  | ⟨0, _⟩ =>
    show win1_5.index ⟨(i 0).val / 2000, ht⟩ (0 : Fin 2) * 2000 ≤ (i 0).val ∧ (i 0).val < win1_5.index ⟨(i 0).val / 2000, ht⟩ (0 : Fin 2) * 2000 + 2000
    have e11' : win1_5.index ⟨(i 0).val / 2000, ht⟩ (0 : Fin 2) = (i 0).val / 2000 := e11
    omega
  | ⟨1, _⟩ =>
    show win1_5.index ⟨(i 0).val / 2000, ht⟩ (1 : Fin 2) * 256 ≤ (i 1).val ∧ (i 1).val < win1_5.index ⟨(i 0).val / 2000, ht⟩ (1 : Fin 2) * 256 + 256
    omega

/-- The second pipeline's result array, after its last point, is the reference's tail of the aggregated array and the
    parameter arrays as the region found them. -/
theorem array (c : Dev nD) (x3 : FVec Ideal S128 .f32) (x4 : FVec Ideal S1 .f32) (x6 : FVec Ideal S256 .f32)
    (h3 : ∀ k : Fin 128, (V c main_v44 : S1x128.Idx → EReal) (ix2 (0 : Fin 1) k) = x3 (ix1 k))
    (h4 : (V c main_v46 : S1x1.Idx → EReal) (ix2 (0 : Fin 1) (0 : Fin 1)) = x4 (ix1 (0 : Fin 1)))
    (h6 : ∀ q : Fin 256, (V c main_v45 : S1x256.Idx → EReal) (ix2 (0 : Fin 1) q) = x6 (ix1 q)) :
    (dat1 V c).arrAt 5 cfg1.N = Cert.ReferenceIdeal.Split.tail (F := Ideal) (V c main_v43) x3 x4 (V c main_arg5) x6 :=
  (dat1 V c).arrAt_eq_of_cover 5 _ (fun t _ => flushed V c t x3 x4 x6 h3 h4 h6) cover

end Region

end Cert.KernelIdeal.Second

end
-- ==== Proof.Between.lean ====
/-
  Between the two pipelines.  The host operations that separate them do two things: they aggregate the first
  pipeline's result over the edge list (the same operations, in the same order, as the reference's: carried as the one
  function `agg` and never opened), and they reshape the hidden bias, the output bias and the slope into one-row
  arrays for the second pipeline's windows.  Here the contents the second pipeline finds are read back through those
  operations: first from any contents `W` the stretch may start from, then from the first pipeline's exit contents,
  where every argument array still holds what was launched.
-/
import proofs.«166527_j50594714747240_1_alg».proof.Proof.Gen.KernelIdeal.Frame
import proofs.«166527_j50594714747240_1_alg».proof.Proof.Stages
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Between

open Idealize.ShloMosaic Idealize.ShloMosaic.TcCoe Idealize.ShloMosaic.ValueIdx Idealize.SL.Sem Idealize.ShloMosaic.StableHlo
open Cert.KernelIdeal Cert.KernelIdeal.Gen

/-! ## The stretch as one term -/

section Term
variable {F : FTy → Type} [FloatOps F]

set_option maxRecDepth 8192 in
/-- The aggregation stretch written out as one term of the two buffers it reads, the feature array `h` and the edge
    list `e`: the two endpoint lists with the self-loops appended, the degrees by a scatter-add of ones, their inverse
    square roots where the degree is positive, the two gathers of those and their product, the gather of the feature
    rows, the scaling, and the scatter-add into zeros.  Operation for operation this is the host stretch between the two
    pipelines; it is only ever compared as a whole, never opened. -/
def aggTerm (h : (⟨S100000x128, .f32⟩ : BufTy).Contents (Elt F)) (e : (⟨S2x1600000, .i32⟩ : BufTy).Contents (Elt F)) :
    (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (mulf (Host.gather gather_S100000x128_S1700000x1_S1700000x128_1_0_n_n_0_1_1128 h (broadcastInDim S1700000x1 ![0] bcast_S1700000_S1700000x1_0 (select (cmpi .slt (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0)))) (broadcastInDim S1700000x128 ![0, 1] bcast_S1700000x1_S1700000x128_0_1 (broadcastInDim S1700000x1 ![0] bcast_S1700000_S1700000x1_0 (mulf (Host.gather gather_S100000_S1700000x1_S1700000_n_0_n_n_0_1_1 (select (cmpf (F := F) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32))) (broadcastInDim S100000 ![] bcast_S_S100000 (constant S_ .f32 0x00000000#32))) (Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32)))) (broadcastInDim S100000 ![] bcast_S_S100000 (id (constant S_ .f32 0x00000000#32)))) (broadcastInDim S1700000x1 ![0] bcast_S1700000_S1700000x1_0 (select (cmpi .slt (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0)))) (Host.gather gather_S100000_S1700000x1_S1700000_n_0_n_n_0_1_1 (select (cmpf (F := F) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32))) (broadcastInDim S100000 ![] bcast_S_S100000 (constant S_ .f32 0x00000000#32))) (Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32)))) (broadcastInDim S100000 ![] bcast_S_S100000 (id (constant S_ .f32 0x00000000#32)))) (broadcastInDim S1700000x1 ![0] bcast_S1700000_S1700000x1_0 (select (cmpi .slt (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0))))))))

set_option maxRecDepth 8192 in
set_option maxHeartbeats 28400000 in
/-- After the stretch, from any contents `W`, the aggregation's buffer holds that term of the feature buffer and the
    edge list as the stretch found them. -/
theorem aggTerm_of (W : Valuation τ sig (Elt F)) :
    StableHlo.after hostOps1_2 (StableHlo.after hostOps1_1 (StableHlo.after hostOps1 W)) (Proc.devRef .tc main_v43)
      = aggTerm (F := F) (W (Proc.devRef .tc main_v0)) (W (Proc.devRef .tc main_arg1)) := by
  after_results_simp <;> rfl <;> (unfold aggTerm; rfl)

set_option maxRecDepth 65536 in
set_option maxHeartbeats 28400000 in
/-- The term is the reference's aggregation function: the same operations, spelt there stage by stage over the
    reference's own copies of the shape and dimension records. -/
theorem aggTerm_eq (h : (⟨S100000x128, .f32⟩ : BufTy).Contents (Elt F)) (e : (⟨S2x1600000, .i32⟩ : BufTy).Contents (Elt F)) :
    aggTerm (F := F) h e = Cert.ReferenceIdeal.Split.agg (F := F) h e := rfl

end Term

/-! ## From any starting contents -/

section Any
variable (W : Valuation τ sig (Elt Ideal))

/-- After the stretch the aggregation's buffer holds `agg` of the feature buffer and the edge list as the stretch found
    them. -/
theorem agg_of :
    StableHlo.after hostOps1_2 (StableHlo.after hostOps1_1 (StableHlo.after hostOps1 W)) (Proc.devRef .tc main_v43)
      = Cert.ReferenceIdeal.Split.agg (F := Ideal) (W (Proc.devRef .tc main_v0)) (W (Proc.devRef .tc main_arg1)) :=
  (aggTerm_of W).trans (aggTerm_eq _ _)

set_option maxHeartbeats 8000000 in
/-- The stretch writes no argument array: the second weight matrix is as found. -/
theorem wlin_of : StableHlo.after hostOps1_2 (StableHlo.after hostOps1_1 (StableHlo.after hostOps1 W)) (Proc.devRef .tc main_arg5) = W (Proc.devRef .tc main_arg5) := by
  after_results_simp

set_option maxHeartbeats 8000000 in
/-- The hidden bias as a one-row array. -/
theorem bconv_of :
    StableHlo.after hostOps1_2 (StableHlo.after hostOps1_1 (StableHlo.after hostOps1 W)) (Proc.devRef .tc main_v44) = shapeCast S1x128 (W (Proc.devRef .tc main_arg3)) shapeCasts_S128_S1x128 := by
  after_results_simp
  rfl

set_option maxHeartbeats 8000000 in
/-- The output bias as a one-row array. -/
theorem blin_of :
    StableHlo.after hostOps1_2 (StableHlo.after hostOps1_1 (StableHlo.after hostOps1 W)) (Proc.devRef .tc main_v45) = shapeCast S1x256 (W (Proc.devRef .tc main_arg6)) shapeCasts_S256_S1x256 := by
  after_results_simp
  rfl

set_option maxHeartbeats 8000000 in
/-- The slope as a 1 × 1 array. -/
theorem slope_of :
    StableHlo.after hostOps1_2 (StableHlo.after hostOps1_1 (StableHlo.after hostOps1 W)) (Proc.devRef .tc main_v46) = shapeCast S1x1 (W (Proc.devRef .tc main_arg4)) shapeCasts_S1_S1x1 := by
  after_results_simp
  rfl

end Any

/-! ## From the first pipeline's exit contents -/

variable (m : (ℓ : Loc nD τ sig) → Buf (Elt Ideal) ℓ) (ρ : Dev nD → PrngReg)

/-- The first pipeline leaves every buffer that is none of its three arrays as launched. -/
theorem kept (c : Dev nD) (b : Ref sig .tc) (hb : ∀ w, Pipeline.arrRef spec0 w ≠ b) :
    W1 m ρ c (Proc.devRef .tc b) = m ((c : Thread nD τ).loc b) := W1_of_ne m ρ c b hb

theorem entry_agg (c : Dev nD) :
    V4 m ρ c main_v43 = Cert.ReferenceIdeal.Split.agg (F := Ideal) (V1 m ρ c main_v0) (m ((c : Thread nD τ).loc main_arg1)) :=
  (agg_of (W1 m ρ c)).trans (by rw [kept m ρ c main_arg1 (by decide)])

theorem entry_wlin (c : Dev nD) : V4 m ρ c main_arg5 = m ((c : Thread nD τ).loc main_arg5) :=
  (wlin_of (W1 m ρ c)).trans (kept m ρ c main_arg5 (by decide))

theorem entry_bconv (c : Dev nD) :
    V4 m ρ c main_v44 = shapeCast S1x128 (m ((c : Thread nD τ).loc main_arg3)) shapeCasts_S128_S1x128 :=
  (bconv_of (W1 m ρ c)).trans (by rw [kept m ρ c main_arg3 (by decide)])

theorem entry_blin (c : Dev nD) :
    V4 m ρ c main_v45 = shapeCast S1x256 (m ((c : Thread nD τ).loc main_arg6)) shapeCasts_S256_S1x256 :=
  (blin_of (W1 m ρ c)).trans (by rw [kept m ρ c main_arg6 (by decide)])

theorem entry_slope (c : Dev nD) :
    V4 m ρ c main_v46 = shapeCast S1x1 (m ((c : Thread nD τ).loc main_arg4)) shapeCasts_S1_S1x1 :=
  (slope_of (W1 m ρ c)).trans (by rw [kept m ρ c main_arg4 (by decide)])

end Cert.KernelIdeal.Between

end
-- ==== Proof.KernelValue.lean ====
/-
  The idealized kernel's result as one function of its arguments.  Reading the last boundary's contents back through
  the five segments: the result buffer holds the second pipeline's array, which is the reference's tail of the
  aggregated array it found; that array is `agg` of the first pipeline's result and the edge list; and the first
  pipeline's result is the whole product `x · W_conv`.  So the kernel ends with
      tail (agg (x · W_conv) e) b_conv a W_lin b_lin ,
  the very term the reference's result splits into.
-/
import proofs.«166527_j50594714747240_1_alg».proof.Proof.Region0
import proofs.«166527_j50594714747240_1_alg».proof.Proof.Region1
import proofs.«166527_j50594714747240_1_alg».proof.Proof.Between

set_option maxRecDepth 16384

noncomputable section

namespace Cert.KernelIdeal.Whole

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- After the first pipeline its result buffer holds the whole product of `x` and `W_conv` as launched. -/
theorem first (c : Dev nD) :
    V1 m ρ c main_v0 = Cert.ReferenceIdeal.ReadP.val_main_v0 (F := Ideal) (m ((c : Thread nD τ).loc main_arg0)) (m ((c : Thread nD τ).loc main_arg2)) :=
  (W1_arr m ρ c 2).trans (First.array (V0 m ρ) c)

/-- The result buffer's final contents. -/
theorem result (c : Dev nD) :
    W5 m ρ c (Proc.devRef .tc main_v47)
      = Cert.ReferenceIdeal.Split.tail (F := Ideal)
          (Cert.ReferenceIdeal.Split.agg (F := Ideal) (Cert.ReferenceIdeal.ReadP.val_main_v0 (F := Ideal) (m ((c : Thread nD τ).loc main_arg0)) (m ((c : Thread nD τ).loc main_arg2))) (m ((c : Thread nD τ).loc main_arg1)))
          (m ((c : Thread nD τ).loc main_arg3)) (m ((c : Thread nD τ).loc main_arg4)) (m ((c : Thread nD τ).loc main_arg5)) (m ((c : Thread nD τ).loc main_arg6)) := by
  refine (W5_arr m ρ c 5).trans ?_
  refine (Second.array (V4 m ρ) c (m ((c : Thread nD τ).loc main_arg3)) (m ((c : Thread nD τ).loc main_arg4)) (m ((c : Thread nD τ).loc main_arg6)) ?_ ?_ ?_).trans ?_
  · intro k
    rw [Between.entry_bconv]
    exact shapeCast_a_1a_apply _ _ _ _
  · rw [Between.entry_slope]
    exact shapeCast_a_1a_apply _ _ _ _
  · intro q
    rw [Between.entry_blin]
    exact shapeCast_a_1a_apply _ _ _ _
  · rw [Between.entry_agg, Between.entry_wlin, first]

end Cert.KernelIdeal.Whole

end
-- ==== Proof.lean ====
/-
  A two-layer graph block: `out = act (agg (x · W_conv) e + b_conv) a · W_lin + b_lin`, where `agg` is the
  degree-normalised neighbourhood sum over the edge list `e` with self-loops and `act` the one-slope leaky activation.

  The kernel computes the two matrix products in two tiled pipelines (2000 rows per grid point, 50 points each,
  operands cast to a narrower float format and accumulated from zero) and the aggregation by host operations
  between them; the reference computes everything on the host.  Over the extended reals a change of float format is
  the identity and a product into a zero accumulator is the plain sum over the contracted coordinate, so each
  pipeline's array is the corresponding whole-array product (Region0, Region1); the aggregation is the same sequence
  of host operations on both sides and is carried as one function of the node features and the edge list (Stages,
  Between); the bias rows and the slope reach the second pipeline reshaped to one-row arrays, which read back to the
  argument vectors entry by entry.  Both programs therefore end with the same function of the arguments
  (KernelValue, `result_split`), with no use of the finiteness of the inputs: every `+`, `·`, comparison and
  selection meets the same operands in the same order on both sides.

  The three frames: the two kernel programs' are the generated ones; the reference has no kernel, and its frame is its
  run with the result dropped.  The idealization rewrote nothing, so `preserves` is `True`.
-/
import proofs.«166527_j50594714747240_1_alg».proof.Defs
import proofs.«166527_j50594714747240_1_alg».proof.Proof.Gen.Kernel
import proofs.«166527_j50594714747240_1_alg».proof.Proof.Gen.Kernel.Skeleton
import proofs.«166527_j50594714747240_1_alg».proof.Proof.Gen.Kernel.Launch
import proofs.«166527_j50594714747240_1_alg».proof.Proof.Gen.Kernel.Points
import proofs.«166527_j50594714747240_1_alg».proof.Proof.Gen.Kernel.Frame
import proofs.«166527_j50594714747240_1_alg».proof.Proof.Gen.KernelIdeal
import proofs.«166527_j50594714747240_1_alg».proof.Proof.Gen.KernelIdeal.Skeleton
import proofs.«166527_j50594714747240_1_alg».proof.Proof.Gen.KernelIdeal.Launch
import proofs.«166527_j50594714747240_1_alg».proof.Proof.Gen.KernelIdeal.Points
import proofs.«166527_j50594714747240_1_alg».proof.Proof.Gen.KernelIdeal.Frame
import proofs.«166527_j50594714747240_1_alg».proof.Proof.Gen.ReferenceIdeal
import proofs.«166527_j50594714747240_1_alg».proof.Proof.Gen.Pre_finite_inputs
import proofs.«166527_j50594714747240_1_alg».proof.Proof.KernelRun
import proofs.«166527_j50594714747240_1_alg».proof.Proof.KernelValue
import proofs.«166527_j50594714747240_1_alg».proof.Proof.RefRead
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run with the result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- From memories agreeing on the arguments both programs end with `tail (agg (x · W_conv) e) b_conv a W_lin b_lin`. -/
theorem algebraic : Cert.algebraic_KernelIdeal_ReferenceIdeal := by
  intro m ρ m' ρ' _ hagree
  refine ⟨_, Cert.KernelIdeal.Named.run (F := Ideal) m ρ, ?_⟩
  refine (θ_run Cert.ReferenceIdeal.defs _ _).mono (fun _ h c => ⟨(h c).1.trans ?_, (h c).2⟩) (Cert.ReferenceIdeal.ValueP.run (F := Ideal) m' ρ')
  rw [Cert.ReferenceIdeal.ReadP.val_main_v56_eq, Cert.ReferenceIdeal.Split.result_split, (hagree c).1, (hagree c).2.1, (hagree c).2.2.1, (hagree c).2.2.2.1,
    (hagree c).2.2.2.2.1, (hagree c).2.2.2.2.2.1, (hagree c).2.2.2.2.2.2]
  exact (Cert.KernelIdeal.Whole.result m ρ c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
